-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : IVec S4096x4096 32) (main_arg2 : FVec F S4096 .f32) (main_arg3 : IVec S4096 32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096 : Shape := ⟨1, ![4096]⟩
abbrev S512x2048 : Shape := ⟨2, ![512, 2048]⟩
abbrev S512 : Shape := ⟨1, ![512]⟩
abbrev S512x512 : Shape := ⟨2, ![512, 512]⟩
abbrev S512x1 : Shape := ⟨2, ![512, 1]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096, .i32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S2x2048x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S512, .f32⟩
  | .local _ .vmem, ⟨5, _⟩ => ⟨S512, .f32⟩
  | .local _ .vmem, ⟨6, _⟩ => ⟨S512, .i32⟩
  | .local _ .vmem, ⟨7, _⟩ => ⟨S512, .i32⟩
  | .local _ .vmem, ⟨8, _⟩ => ⟨S512, .f32⟩
  | .local _ .vmem, ⟨9, _⟩ => ⟨S512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v24 : BitVec 1 := Scalar.cmpi .eq arg2 c1_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2x2048x4096_S4096x4096 : S2x2048x4096.ShapeCasts S4096x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  inb_S512x2048_S512x2048_0_0 : ∀ a, (![0, 0] : Fin 2 → Nat) a + S512x2048.size a ≤ S512x2048.size a
  h_S512x2048 : 0 < S512x2048.numel
  shapeCasts_S512_S512x1 : S512.ShapeCasts S512x1
  broadcasts_S512x1_S512x2048 : S512x1.Broadcasts S512x2048
  bitsLt_bf16_f32 : FTy.bits .bf16 < FTy.bits .f32
  shapeCasts_S512x2048_S512x2048 : S512x2048.ShapeCasts S512x2048
  shapeCasts_S512_S1x512 : S512.ShapeCasts S1x512
  broadcasts_S1x512_S512x512 : S1x512.Broadcasts S512x512
  shapeCasts_S4096x4096_S2x2048x4096 : S4096x4096.ShapeCasts S2x2048x4096
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .i32 = 32 ∨ (Rect.block (s := S4096x4096) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .i32 = 32 ∨ (Rect.block (s := S4096) S512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096, .i32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x1, .f32⟩
  | .hbm, ⟨8, _⟩ => ⟨S4096x4096, .f32⟩
  | .hbm, ⟨9, _⟩ => ⟨S4096x4096, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S2x2048x4096, .f32⟩
  | .hbm, ⟨14, _⟩ => ⟨S1x1x4096, .f32⟩
  | .hbm, ⟨15, _⟩ => ⟨S2x2048x4096, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Spec.lean ====
/-
  The mathematics of the quantized linear layer, over the extended reals, with no program in sight.

  An input row x[b, s, ·] of 4096 entries meets an output channel o of a weight matrix stored as integers
  q[o, ·] with one integer zero point zp[o] and one scale sc[o] per channel: the dequantized weight is
  w[o, k] = (q[o, k] − zp[o]) · sc[o], the integers read exactly, and the layer's value is
  (∑ k < 4096, x[b, s, k] · w[o, k]) + bias[o]  (`linear`).

  A tiled evaluation flattens the two leading axes of x into 4096 rows, walks the 4096 products of a row and a
  channel in two halves of 2048, starting from zero, and adds the bias last (`linearHalves`); flattening and
  un-flattening are re-indexings by the row-major position 2048 · b + s. The two agree on every extended real:
  a finite sum over Fin (2048 + 2048) is the sum over the first 2048 indices plus the sum over the last 2048
  (`sum_halves`), and 0 + a = a. Only commutative-monoid laws of + are used, which hold at the infinities too,
  so no finiteness of the entries is needed.
-/
import Idealize.ShloMosaic.PureOps.Ideal
import Idealize.ShloMosaic.Lib.ValueIdx
import Idealize.ShloMosaic.Lib.Pipeline.Value

noncomputable section

open scoped BigOperators

namespace Cert.QLinear

open Idealize.ShloMosaic Idealize.ShloMosaic.ValueIdx

/-- The three array shapes of the layer: the activations, the weight matrix (and the flattened activations), a
    per-channel vector. -/
abbrev SX : Shape := ⟨3, ![2, 2048, 4096]⟩
abbrev SW : Shape := ⟨2, ![4096, 4096]⟩
abbrev SC : Shape := ⟨1, ![4096]⟩

/-- An integer word read exactly as an extended real (the signed conversion at the ideal values). -/
abbrev ofInt (b : BitVec 32) : EReal := FloatOps.sitofp (F := Ideal) .f32 b

/-- The dequantized weight of output channel `n` at input feature `k`: (q[n, k] − zp[n]) · sc[n]. -/
def weight (q : SW.Idx → BitVec 32) (sc : SC.Idx → EReal) (zp : SC.Idx → BitVec 32) (n k : Fin 4096) : EReal :=
  (ofInt (q (ix2 n k)) - ofInt (zp (ix1 n))) * sc (ix1 n)

/-- The layer: at (b, s, o) the whole dot product of row (b, s) with channel o's weights, plus the bias. -/
def linear (x : SX.Idx → EReal) (q : SW.Idx → BitVec 32) (sc : SC.Idx → EReal) (zp : SC.Idx → BitVec 32)
    (bias : SC.Idx → EReal) : SX.Idx → EReal :=
  fun i => (∑ k : Fin 4096, x (ix3 (i 0) (i 1) k) * weight q sc zp (i 2) k) + bias (ix1 (i 2))

/-- Feature `k` of the first half, and of the second half, of the 4096 input features. -/
abbrev lo (k : Fin 2048) : Fin 4096 := Fin.castAdd 2048 k
abbrev hi (k : Fin 2048) : Fin 4096 := Fin.natAdd 2048 k

theorem lo_val (k : Fin 2048) : (lo k).val = k.val := rfl
theorem hi_val (k : Fin 2048) : (hi k).val = 2048 + k.val := rfl

/-- The tiled evaluation over flattened rows: from zero, the first half of the products, then the second half,
    then the bias. -/
def linearHalves (a : SW.Idx → EReal) (q : SW.Idx → BitVec 32) (sc : SC.Idx → EReal) (zp : SC.Idx → BitVec 32)
    (bias : SC.Idx → EReal) : SW.Idx → EReal :=
  fun j => ((0 + ∑ k : Fin 2048, a (ix2 (j 0) (lo k)) * weight q sc zp (j 1) (lo k))
      + ∑ k : Fin 2048, a (ix2 (j 0) (hi k)) * weight q sc zp (j 1) (hi k)) + bias (ix1 (j 1))

/-- A sum over 4096 indices, taken from zero in two halves of 2048. -/
theorem sum_halves (f : Fin 4096 → EReal) :
    (0 + ∑ k : Fin 2048, f (lo k)) + ∑ k : Fin 2048, f (hi k) = ∑ k : Fin 4096, f k := by
  rw [zero_add]
  exact (Fin.sum_univ_add (a := 2048) (b := 2048) f).symm

/-- Row (b, s) of the activations is row 2048 · b + s of the flattened activations. -/
abbrev flatRow (b : Fin 2) (s : Fin 2048) : Fin 4096 := ⟨2048 * b.val + s.val, by omega⟩

/-- THE LAW. Flatten the activations, evaluate in halves, un-flatten: the layer. -/
theorem unflatten_linearHalves (x : SX.Idx → EReal) (q : SW.Idx → BitVec 32) (sc : SC.Idx → EReal)
    (zp : SC.Idx → BitVec 32) (bias : SC.Idx → EReal) (hf : SX.ShapeCasts SW) (hu : SW.ShapeCasts SX) :
    shapeCast SX (linearHalves (shapeCast SW x hf) q sc zp bias) hu = linear x q sc zp bias := by
  funext i
  obtain ⟨b, s, o, rfl⟩ : ∃ (b : Fin 2) (s : Fin 2048) (o : Fin 4096), i = ix3 b s o := ⟨i 0, i 1, i 2, eq_ix3 i⟩
  have hb := b.isLt
  have hs := s.isLt
  rw [shapeCast_apply _ hu (ix3 b s o) (ix2 (flatRow b s) o) (by
    rw [Shape.rowMajor_val_two, Shape.rowMajor_val_three]
    show (2048 * b.val + s.val) * 4096 + o.val = (b.val * 2048 + s.val) * 4096 + o.val
    omega)]
  have row : ∀ k : Fin 4096, shapeCast SW x hf (ix2 (flatRow b s) k) = x (ix3 b s k) := fun k =>
    shapeCast_apply _ hf (ix2 (flatRow b s) k) (ix3 b s k) (by
      rw [Shape.rowMajor_val_two, Shape.rowMajor_val_three]
      show (b.val * 2048 + s.val) * 4096 + k.val = (2048 * b.val + s.val) * 4096 + k.val
      omega)
  show ((0 + ∑ k : Fin 2048, shapeCast SW x hf (ix2 (flatRow b s) (lo k)) * weight q sc zp o (lo k))
      + ∑ k : Fin 2048, shapeCast SW x hf (ix2 (flatRow b s) (hi k)) * weight q sc zp o (hi k)) + bias (ix1 o)
    = (∑ k : Fin 4096, x (ix3 b s k) * weight q sc zp o k) + bias (ix1 o)
  simp only [row]
  rw [sum_halves fun k => x (ix3 b s k) * weight q sc zp o k]

end Cert.QLinear

end
-- ==== Proof.RefSide.lean ====
/-
  The reference computes the layer.

  The reference program converts the integer weights and zero points exactly, broadcasts zero point and scale down
  each weight row, forms (q − zp) · sc, contracts the activations' last axis with the weights' last axis, and adds
  the bias broadcast over the two leading axes. Read at an output index (b, s, o), one operation at a time, that is
  (∑ k < 4096, x[b, s, k] · ((q[o, k] − zp[o]) · sc[o])) + bias[o]: the specification's `linear`, term for term.
  The only work is naming the operand index each broadcast and the contraction read.
-/
import proofs.«119372_j72662256714090_1_alg».proof.Defs
import proofs.«119372_j72662256714090_1_alg».proof.Proof.Gen.ReferenceIdeal.Run
import proofs.«119372_j72662256714090_1_alg».proof.Proof.Gen.ReferenceIdeal.Read
import proofs.«119372_j72662256714090_1_alg».proof.Proof.Spec

noncomputable section

open scoped BigOperators

namespace Cert.ReferenceIdeal.Layer

open Cert.ReferenceIdeal Cert.ReferenceIdeal.Read Cert.QLinear
open Idealize.ShloMosaic Idealize.ShloMosaic.ValueIdx

/-- The contraction at output (b, s, o) and feature k reads the activations at (b, s, k) … -/
theorem lhs_index (b : Fin 2) (s : Fin 2048) (o k : Fin 4096) : lidx_main_v8 (ix3 b s o) k = ix3 b s k :=
  funext fun a => by match a with | ⟨0, _⟩ => rfl | ⟨1, _⟩ => rfl | ⟨2, _⟩ => rfl

/-- … and the dequantized weights at (o, k). -/
theorem rhs_index (b : Fin 2) (s : Fin 2048) (o k : Fin 4096) : ridx_main_v8 (ix3 b s o) k = ix2 o k :=
  funext fun a => by match a with | ⟨0, _⟩ => rfl | ⟨1, _⟩ => rfl

/-- A per-channel vector broadcast down the weight rows is read, at (o, k), at channel o. -/
theorem row_index_zp (o k : Fin 4096) : idx_main_v2 (idx_main_v3 (ix2 o k)) = ix1 o :=
  funext fun a => by match a with | ⟨0, _⟩ => rfl

theorem row_index_sc (o k : Fin 4096) : idx_main_v5 (idx_main_v6 (ix2 o k)) = ix1 o :=
  funext fun a => by match a with | ⟨0, _⟩ => rfl

/-- The bias broadcast over the leading axes is read, at (b, s, o), at channel o. -/
theorem bias_index (b : Fin 2) (s : Fin 2048) (o : Fin 4096) : idx_main_v9 (idx_main_v10 (ix3 b s o)) = ix1 o :=
  funext fun a => by match a with | ⟨0, _⟩ => rfl

/-- The dequantized weight matrix the reference builds is the specification's `weight`. -/
theorem weights_apply (q : SW.Idx → BitVec 32) (sc : SC.Idx → EReal) (zp : SC.Idx → BitVec 32) (o k : Fin 4096) :
    val_main_v7 (F := Ideal) q sc zp (ix2 o k) = weight q sc zp o k := by
  rw [val_main_v7_apply, val_main_v4_apply, val_main_v0_apply, val_main_v3_apply, val_main_v2_apply, val_main_v1_apply,
    val_main_v6_apply, val_main_v5_apply, row_index_zp, row_index_sc]
  rfl

/-- The reference's result is the layer. -/
theorem result_eq_linear (x : SX.Idx → EReal) (q : SW.Idx → BitVec 32) (sc : SC.Idx → EReal) (zp : SC.Idx → BitVec 32)
    (bias : SC.Idx → EReal) : val_main_v11 (F := Ideal) x q sc zp bias = linear x q sc zp bias := by
  funext i
  obtain ⟨b, s, o, rfl⟩ : ∃ (b : Fin 2) (s : Fin 2048) (o : Fin 4096), i = ix3 b s o := ⟨i 0, i 1, i 2, eq_ix3 i⟩
  rw [val_main_v11_apply, val_main_v8_apply, val_main_v10_apply, val_main_v9_apply, bias_index]
  simp only [lhs_index, rhs_index, weights_apply]
  rfl

end Cert.ReferenceIdeal.Layer

end
-- ==== Proof.Pieces.lean ====
/-
  What one run of the kernel body leaves behind, as values.

  The body carries a 512×512 accumulator between grid points. At a point that starts a reduction (the last grid
  coordinate is 0) it stores zeros into the accumulator, reads them back, and stores the first partial product sum on
  top: the accumulator ends at `step … zeros`. At the point that ends the reduction (the last coordinate is 1) it adds
  the second partial sum to what the accumulator held, stores that, reads it back, adds the bias row and stores the
  result into the output block: the accumulator ends at `step … acc`, the output block at `finish (step … acc) bias`.
  Every load and store goes through the whole buffer, so a load reads the contents and the last store wins.
  Here `step` is the payload `k0_pay2`, `finish` is `k0_pay3` and the zeros are `k0_pay1`.
-/
import proofs.«119372_j72662256714090_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- Zero offsets, however spelt. -/
theorem hz2 : (![0, 0] : Fin 2 → Nat) = fun _ => 0 := funext fun a => by fin_cases a <;> rfl
theorem hz1 : (![0] : Fin 1 → Nat) = fun _ => 0 := funext fun a => by fin_cases a <;> rfl

/-- At the point that ends a reduction the accumulator, found at `xs0`, ends at the second partial sum added to it. -/
theorem sout_B (c : Dev nD) (i : grid0.Coords) (arg3 : Memref sig .tc .vmem S512x2048 .f32) (harg3 : arg3.IsWhole) (arg4 : Memref sig .tc .vmem S512x2048 .i32) (harg4 : arg4.IsWhole) (arg5 : Memref sig .tc .vmem S512 .f32) (harg5 : arg5.IsWhole) (arg6 : Memref sig .tc .vmem S512 .i32) (harg6 : arg6.IsWhole) (arg7 : Memref sig .tc .vmem S512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x2048 .f32) (x1 : Vec F S512x2048 .i32) (x2 : Vec F S512 .f32) (x3 : Vec F S512 .i32) (x4 : Vec F S512 .f32) (xs0 : Vec F S512x512 .f32) :
    sout0_B_0 c i arg3 harg3 arg4 harg4 arg5 harg5 arg6 harg6 arg7 harg7 arg8 harg8 arg9 harg9 hc0 hc1 x0 x1 x2 x3 x4 xs0 = k0_pay2 x2 x3 x1 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread, harg9.read_unread,
    View.ld_unit_zero (S := S512x2048) hz2, View.ld_unit_zero (S := S512x512) hz2, View.ld_unit_zero (S := S512) hz1]

/-- … and the output block ends at that accumulator plus the bias row. -/
theorem out_B (c : Dev nD) (i : grid0.Coords) (arg3 : Memref sig .tc .vmem S512x2048 .f32) (harg3 : arg3.IsWhole) (arg4 : Memref sig .tc .vmem S512x2048 .i32) (harg4 : arg4.IsWhole) (arg5 : Memref sig .tc .vmem S512 .f32) (harg5 : arg5.IsWhole) (arg6 : Memref sig .tc .vmem S512 .i32) (harg6 : arg6.IsWhole) (arg7 : Memref sig .tc .vmem S512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x2048 .f32) (x1 : Vec F S512x2048 .i32) (x2 : Vec F S512 .f32) (x3 : Vec F S512 .i32) (x4 : Vec F S512 .f32) (xs0 : Vec F S512x512 .f32) :
    out0_B_5 c i arg3 harg3 arg4 harg4 arg5 harg5 arg6 harg6 arg7 harg7 arg8 harg8 arg9 harg9 hc0 hc1 x0 x1 x2 x3 x4 xs0 = k0_pay3 (k0_pay2 x2 x3 x1 x0 xs0) x4 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S512x512) hz2, View.readCov_unit_zero (S := S512x512) _ hz2]
  simp only [View.readAt_eq_ld, harg3.read_unread, harg4.read_unread, harg5.read_unread, harg6.read_unread, harg7.read_unread, harg9.read_unread,
    View.ld_unit_zero (S := S512x2048) hz2, View.ld_unit_zero (S := S512x512) hz2, View.ld_unit_zero (S := S512) hz1]

/-- At a point that starts a reduction the accumulator ends at the first partial sum added to zeros. -/
theorem sout_A (c : Dev nD) (i : grid0.Coords) (arg3 : Memref sig .tc .vmem S512x2048 .f32) (harg3 : arg3.IsWhole) (arg4 : Memref sig .tc .vmem S512x2048 .i32) (harg4 : arg4.IsWhole) (arg5 : Memref sig .tc .vmem S512 .f32) (harg5 : arg5.IsWhole) (arg6 : Memref sig .tc .vmem S512 .i32) (harg6 : arg6.IsWhole) (arg7 : Memref sig .tc .vmem S512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x2048 .f32) (x1 : Vec F S512x2048 .i32) (x2 : Vec F S512 .f32) (x3 : Vec F S512 .i32) (x4 : Vec F S512 .f32) :
    sout0_A_0 c i arg3 harg3 arg4 harg4 arg5 harg5 arg6 harg6 arg7 harg7 arg8 harg8 arg9 harg9 hc0 hc1 x0 x1 x2 x3 x4 = k0_pay2 x2 x3 x1 x0 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x512) hz2, View.readCov_unit_zero (S := S512x512) _ hz2]
  simp only [View.readAt_eq_ld, harg3.read_unread, harg4.read_unread, harg5.read_unread, harg6.read_unread, harg7.read_unread, harg9.read_unread,
    View.ld_unit_zero (S := S512x2048) hz2, View.ld_unit_zero (S := S512x512) hz2, View.ld_unit_zero (S := S512) hz1]

end Cert.KernelIdeal.Pieces
end
-- ==== Proof.Payload.lean ====
/-
  The body's arithmetic at one entry, over the extended reals.

  `k0_pay2` (one accumulation step) takes a 512×2048 tile of activations, a 512×2048 tile of integer weights with
  its 512 zero points and 512 scales, and the 512×512 accumulator; it dequantizes the weight tile row by row
  ((q − zp) · sc, zero point and scale turned into columns and broadcast along each row), narrows both tiles
  (the identity on extended reals), multiplies the activation tile by the transposed weight tile into zeros and adds
  the accumulator. At entry (r, c) that is acc[r, c] + ∑ k < 2048, a[r, k] · ((q[c, k] − zp[c]) · sc[c]).
  `k0_pay3` (the last step) adds the bias, made a row and broadcast down the columns: acc[r, c] + bias[c].
  `k0_pay1` is the zero tile.
-/
import proofs.«119372_j72662256714090_1_alg».proof.Proof.Gen.KernelIdeal.Skeleton
import proofs.«119372_j72662256714090_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.QLinear
open Idealize.ShloMosaic Idealize.ShloMosaic.ValueIdx

/-- A vector of 512 entries made a 512×1 column and broadcast along rows of 2048 is read, at (c, k), at c. -/
theorem column_apply {α : Type} (v : S512.Idx → α) (c : Fin 512) (k : Fin 2048) :
    broadcastTo S512x2048 (shapeCast S512x1 v shapeCasts_S512_S512x1) broadcasts_S512x1_S512x2048 (ix2 c k) = v (ix1 c) := by
  refine (broadcastTo_apply _ broadcasts_S512x1_S512x2048 (ix2 c k) (ix2 c (0 : Fin 1)) fun ax => ?_).trans ?_
  · match ax with
    | ⟨0, _⟩ => show c.val = if (512 : Nat) = 1 then 0 else c.val; rw [if_neg (by decide)]
    | ⟨1, _⟩ => show 0 = if (1 : Nat) = 1 then 0 else k.val; rw [if_pos rfl]
  · exact shapeCast_apply v shapeCasts_S512_S512x1 (ix2 c (0 : Fin 1)) (ix1 c) (by
      rw [Shape.rowMajor_val_one, Shape.rowMajor_val_two]
      show c.val = c.val * 1 + 0
      omega)

/-- A vector of 512 entries made a 1×512 row and broadcast down 512 rows is read, at (r, c), at c. -/
theorem row_apply {α : Type} (v : S512.Idx → α) (r c : Fin 512) :
    broadcastTo S512x512 (shapeCast S1x512 v shapeCasts_S512_S1x512) broadcasts_S1x512_S512x512 (ix2 r c) = v (ix1 c) :=
  (broadcastTo_1b_ab_apply _ broadcasts_S1x512_S512x512 r c).trans (shapeCast_a_1a_apply v shapeCasts_S512_S1x512 0 c)

/-- The dequantized weight tile at (c, k). -/
theorem tile_weight_apply (sc : Vec Ideal S512 .f32) (zp : Vec Ideal S512 .i32) (q : Vec Ideal S512x2048 .i32)
    (c : Fin 512) (k : Fin 2048) :
    mulf (subf (sitofp .f32 q) (broadcastTo S512x2048 (shapeCast S512x1 (sitofp (F := Ideal) .f32 zp) shapeCasts_S512_S512x1) broadcasts_S512x1_S512x2048))
        (broadcastTo S512x2048 (shapeCast S512x1 sc shapeCasts_S512_S512x1) broadcasts_S512x1_S512x2048) (ix2 c k)
      = (ofInt (q (ix2 c k)) - ofInt (zp (ix1 c))) * sc (ix1 c) := by
  rw [mulf_apply, subf_apply, column_apply, column_apply]
  rfl

/-- The body's matrix product contracts both tiles along their last axis: at output (r, c) and contraction
    position q it reads the activation tile at row r, column q, and the weight tile at row c, column q. -/
theorem contr_lhs_0 (j : S512x512.Idx) (q : dot_S512x2048_S512x2048_S512x512_1_1_0_0_n_n.contr.Idx) :
    (dot_S512x2048_S512x2048_S512x512_1_1_0_0_n_n.lhsIdx j q 0).val = (j 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem contr_lhs_1 (j : S512x512.Idx) (q : dot_S512x2048_S512x2048_S512x512_1_1_0_0_n_n.contr.Idx) :
    (dot_S512x2048_S512x2048_S512x512_1_1_0_0_n_n.lhsIdx j q 1).val = (q ⟨0, by decide⟩).val :=
  dot_S512x2048_S512x2048_S512x512_1_1_0_0_n_n.lhsIdx_val_of_single rfl j q
theorem contr_rhs_0 (j : S512x512.Idx) (q : dot_S512x2048_S512x2048_S512x512_1_1_0_0_n_n.contr.Idx) :
    (dot_S512x2048_S512x2048_S512x512_1_1_0_0_n_n.rhsIdx j q 0).val = (j 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem contr_rhs_1 (j : S512x512.Idx) (q : dot_S512x2048_S512x2048_S512x512_1_1_0_0_n_n.contr.Idx) :
    (dot_S512x2048_S512x2048_S512x512_1_1_0_0_n_n.rhsIdx j q 1).val = (q ⟨0, by decide⟩).val :=
  dot_S512x2048_S512x2048_S512x512_1_1_0_0_n_n.rhsIdx_val_of_single rfl j q

theorem contr_lhs (r c : Fin 512) (k : Fin 2048) :
    dot_S512x2048_S512x2048_S512x512_1_1_0_0_n_n.lhsIdx (ix2 r c)
      ((contrEquiv1 dot_S512x2048_S512x2048_S512x512_1_1_0_0_n_n 2048 rfl rfl).symm k) = ix2 r k :=
  funext fun a => Fin.ext (by
    have hk := contrEquiv1_symm_val dot_S512x2048_S512x2048_S512x512_1_1_0_0_n_n 2048 rfl rfl k
    match a with
    | ⟨0, _⟩ => exact contr_lhs_0 _ _
    | ⟨1, _⟩ => exact (contr_lhs_1 _ _).trans hk)

theorem contr_rhs (r c : Fin 512) (k : Fin 2048) :
    dot_S512x2048_S512x2048_S512x512_1_1_0_0_n_n.rhsIdx (ix2 r c)
      ((contrEquiv1 dot_S512x2048_S512x2048_S512x512_1_1_0_0_n_n 2048 rfl rfl).symm k) = ix2 c k :=
  funext fun a => Fin.ext (by
    have hk := contrEquiv1_symm_val dot_S512x2048_S512x2048_S512x512_1_1_0_0_n_n 2048 rfl rfl k
    match a with
    | ⟨0, _⟩ => exact contr_rhs_0 _ _
    | ⟨1, _⟩ => exact (contr_rhs_1 _ _).trans hk)

/-- ONE ACCUMULATION STEP at entry (r, c): the accumulator there plus the 2048 products of row r of the activation
    tile with row c of the dequantized weight tile. -/
theorem step_apply (sc : Vec Ideal S512 .f32) (zp : Vec Ideal S512 .i32) (q : Vec Ideal S512x2048 .i32)
    (a : Vec Ideal S512x2048 .f32) (acc : Vec Ideal S512x512 .f32) (r c : Fin 512) :
    k0_pay2 (F := Ideal) sc zp q a acc (ix2 r c)
      = acc (ix2 r c) + ∑ k : Fin 2048, a (ix2 r k) * ((ofInt (q (ix2 c k)) - ofInt (zp (ix1 c))) * sc (ix1 c)) := by
  show shapeCast S512x512 (addf acc (matmul dot_S512x2048_S512x2048_S512x512_1_1_0_0_n_n none
      (truncf .bf16 (shapeCast S512x2048 a shapeCasts_S512x2048_S512x2048) bitsLt_bf16_f32)
      (truncf .bf16 (mulf (subf (sitofp .f32 q) (broadcastTo S512x2048 (shapeCast S512x1 (sitofp (F := Ideal) .f32 zp) shapeCasts_S512_S512x1) broadcasts_S512x1_S512x2048))
        (broadcastTo S512x2048 (shapeCast S512x1 sc shapeCasts_S512_S512x1) broadcasts_S512x1_S512x2048)) bitsLt_bf16_f32)
      (constant S512x512 .f32 0x00000000#32))) shapeCasts_S512x512_S512x512 (ix2 r c) = _
  rw [shapeCast_self, shapeCast_self, addf_apply]
  refine congrArg (acc (ix2 r c) + ·) ?_
  refine (Ideal.matmul_constant_zero_apply dot_S512x2048_S512x2048_S512x512_1_1_0_0_n_n none _ _ (ix2 r c)).trans ?_
  rw [← Equiv.sum_comp (contrEquiv1 dot_S512x2048_S512x2048_S512x512_1_1_0_0_n_n 2048 rfl rfl).symm]
  refine Finset.sum_congr rfl fun k _ => ?_
  rw [contr_lhs, contr_rhs]
  exact congrArg (a (ix2 r k) * ·) (tile_weight_apply sc zp q c k)

/-- THE LAST STEP at entry (r, c): the accumulator there plus the bias of column c. -/
theorem finish_apply (acc : Vec Ideal S512x512 .f32) (bias : Vec Ideal S512 .f32) (r c : Fin 512) :
    k0_pay3 (F := Ideal) acc bias (ix2 r c) = acc (ix2 r c) + bias (ix1 c) := by
  show addf acc (broadcastTo S512x512 (shapeCast S1x512 bias shapeCasts_S512_S1x512 : FVec Ideal S1x512 .f32) broadcasts_S1x512_S512x512) (ix2 r c) = _
  rw [addf_apply, row_apply]

/-- The zero tile is zero everywhere. -/
theorem zeros_apply (j : S512x512.Idx) : k0_pay1 (F := Ideal) j = 0 := by
  show shapeCast S512x512 (broadcast S512x512 (Scalar.ofBits (F := Ideal) .f32 0x00000000#32)) shapeCasts_S512x512_S512x512 j = 0
  rw [shapeCast_self]
  exact Ideal.ofBits_zero_f32

/-- A WHOLE REDUCTION at entry (r, c): from the zero tile, a first accumulation step on one set of tiles, a second on
    another, then the bias: ((0 + first 2048 products) + second 2048 products) + bias[c]. -/
theorem reduction_apply (sc' sc : Vec Ideal S512 .f32) (zp' zp : Vec Ideal S512 .i32) (q' q : Vec Ideal S512x2048 .i32)
    (a' a : Vec Ideal S512x2048 .f32) (bias : Vec Ideal S512 .f32) (r c : Fin 512) :
    k0_pay3 (F := Ideal) (k0_pay2 sc zp q a (k0_pay2 sc' zp' q' a' (k0_pay1 (F := Ideal)))) bias (ix2 r c)
      = ((0 + ∑ k : Fin 2048, a' (ix2 r k) * ((ofInt (q' (ix2 c k)) - ofInt (zp' (ix1 c))) * sc' (ix1 c)))
          + ∑ k : Fin 2048, a (ix2 r k) * ((ofInt (q (ix2 c k)) - ofInt (zp (ix1 c))) * sc (ix1 c))) + bias (ix1 c) := by
  rw [finish_apply, step_apply, step_apply, zeros_apply]

end Cert.KernelIdeal.Payload

end
-- ==== Proof.Blocks.lean ====
/-
  From grid points to the output array.

  The grid is 8 × 8 × 2: point t has row-block t / 16, column-block (t / 2) % 8 and reduction half t % 2, the half
  moving fastest. At point t the activation window holds rows 512·(t/16) … of the flattened activations and features
  2048·(t%2) …; the weight window holds channels 512·((t/2)%8) … and the same features; the three per-channel windows
  hold the same channels; the output window is block (t/16, (t/2)%8), written back at the odd points only.

  An odd point t ends the reduction its predecessor t − 1 started, on the same row block and channel block, the
  predecessor on the first half of the features and t on the second. So what t writes back is, entry by entry, the
  specification's two-halves evaluation ¶linearHalves¶ of the arrays as the region finds them, read through t's block
  (¶flushed_eq¶). Every entry (M, N) of the output lies in the block written back at t = 2·(8·(M/512) + N/512) + 1
  (¶cover¶), so the output array ends holding ¶linearHalves¶ of those arrays (¶final¶).
-/
import proofs.«119372_j72662256714090_1_alg».proof.Proof.Gen.KernelIdeal.Frame
import proofs.«119372_j72662256714090_1_alg».proof.Proof.Pieces
import proofs.«119372_j72662256714090_1_alg».proof.Proof.Payload
import proofs.«119372_j72662256714090_1_alg».proof.Proof.Spec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Pieces Cert.KernelIdeal.Payload Cert.QLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The five arrays the region reads, as it finds them: the flattened activations, the integer weights, the scales, the
    zero points, the bias. -/
abbrev acts (c : Dev nD) : SW.Idx → EReal := V m c main_v0
abbrev wints (c : Dev nD) : SW.Idx → BitVec 32 := V m c main_arg1
abbrev scales (c : Dev nD) : SC.Idx → EReal := V m c main_arg2
abbrev zpoints (c : Dev nD) : SC.Idx → BitVec 32 := V m c main_arg3
abbrev biases (c : Dev nD) : SC.Idx → EReal := V m c main_arg4

/-- The five input windows' blocks at point t. -/
abbrev actsBlk (c : Dev nD) (t : Fin cfg0.N) : S512x2048.Idx → EReal := iblk m c 0 t
abbrev wintsBlk (c : Dev nD) (t : Fin cfg0.N) : S512x2048.Idx → BitVec 32 := iblk m c 1 t
abbrev scalesBlk (c : Dev nD) (t : Fin cfg0.N) : S512.Idx → EReal := iblk m c 2 t
abbrev zpointsBlk (c : Dev nD) (t : Fin cfg0.N) : S512.Idx → BitVec 32 := iblk m c 3 t
abbrev biasesBlk (c : Dev nD) (t : Fin cfg0.N) : S512.Idx → EReal := iblk m c 4 t

/-- The printed index maps over the grid: row block, channel block and reduction half of point t. -/
theorem index_facts : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 1) = t.val / 2 % 8
    ∧ win0_3.index t (0 : Fin 1) = t.val / 2 % 8
    ∧ win0_4.index t (0 : Fin 1) = t.val / 2 % 8
    ∧ win0_5.index t (0 : Fin 2) = t.val / 16 ∧ win0_5.index t (1 : Fin 2) = t.val / 2 % 8 :=
  (by decide +kernel : ∀ t : Fin grid0.N, _)

/-- The activation window at point t, entry (r, k): the flattened activations at row 512·(t/16) + r, feature
    2048·(t%2) + k. -/
theorem acts_block_apply (c : Dev nD) (t : Fin cfg0.N) (r : Fin 512) (k : Fin 2048) (M K : Fin 4096)
    (hM : M.val = 512 * (t.val / 16) + r.val) (hK : K.val = 2048 * (t.val % 2) + k.val) :
    actsBlk m c t (ix2 r k) = acts m c (ix2 M K) := by
  obtain ⟨e0, e1, -⟩ := index_facts t
  show iblk m c 0 t _ = V m c main_v0 _
  unfold iblk
  rw [View.read_apply]
  show V m c main_v0 _ = V m c main_v0 _
  refine congrArg (V m c main_v0) (funext fun a => Fin.ext ?_)
  match a with
  | ⟨0, _⟩ => show win0_0.index t (0 : Fin 2) * 512 + 1 * r.val = M.val; rw [e0, hM]; omega
  | ⟨1, _⟩ => show win0_0.index t (1 : Fin 2) * 2048 + 1 * k.val = K.val; rw [e1, hK]; omega

/-- The weight window at point t, entry (n, k): the integer weights at channel 512·((t/2)%8) + n, feature
    2048·(t%2) + k. -/
theorem weights_block_apply (c : Dev nD) (t : Fin cfg0.N) (n : Fin 512) (k : Fin 2048) (N K : Fin 4096)
    (hN : N.val = 512 * (t.val / 2 % 8) + n.val) (hK : K.val = 2048 * (t.val % 2) + k.val) :
    wintsBlk m c t (ix2 n k) = wints m c (ix2 N K) := by
  obtain ⟨-, -, e2, e3, -⟩ := index_facts t
  show iblk m c 1 t _ = V m c main_arg1 _
  unfold iblk
  rw [View.read_apply]
  show V m c main_arg1 _ = V m c main_arg1 _
  refine congrArg (V m c main_arg1) (funext fun a => Fin.ext ?_)
  match a with
  | ⟨0, _⟩ => show win0_1.index t (0 : Fin 2) * 512 + 1 * n.val = N.val; rw [e2, hN]; omega
  | ⟨1, _⟩ => show win0_1.index t (1 : Fin 2) * 2048 + 1 * k.val = K.val; rw [e3, hK]; omega

/-- The scale, zero-point and bias windows at point t, entry n: channel 512·((t/2)%8) + n. -/
theorem scale_block_apply (c : Dev nD) (t : Fin cfg0.N) (n : Fin 512) (N : Fin 4096)
    (hN : N.val = 512 * (t.val / 2 % 8) + n.val) :
    scalesBlk m c t (ix1 n) = scales m c (ix1 N) := by
  obtain ⟨-, -, -, -, e4, -⟩ := index_facts t
  show iblk m c 2 t _ = V m c main_arg2 _
  unfold iblk
  rw [View.read_apply]
  show V m c main_arg2 _ = V m c main_arg2 _
  refine congrArg (V m c main_arg2) (funext fun a => Fin.ext ?_)
  match a with
  | ⟨0, _⟩ => show win0_2.index t (0 : Fin 1) * 512 + 1 * n.val = N.val; rw [e4, hN]; omega

theorem zero_point_block_apply (c : Dev nD) (t : Fin cfg0.N) (n : Fin 512) (N : Fin 4096)
    (hN : N.val = 512 * (t.val / 2 % 8) + n.val) :
    zpointsBlk m c t (ix1 n) = zpoints m c (ix1 N) := by
  obtain ⟨-, -, -, -, -, e5, -⟩ := index_facts t
  show iblk m c 3 t _ = V m c main_arg3 _
  unfold iblk
  rw [View.read_apply]
  show V m c main_arg3 _ = V m c main_arg3 _
  refine congrArg (V m c main_arg3) (funext fun a => Fin.ext ?_)
  match a with
  | ⟨0, _⟩ => show win0_3.index t (0 : Fin 1) * 512 + 1 * n.val = N.val; rw [e5, hN]; omega

theorem biases_block_apply (c : Dev nD) (t : Fin cfg0.N) (n : Fin 512) (N : Fin 4096)
    (hN : N.val = 512 * (t.val / 2 % 8) + n.val) :
    biasesBlk m c t (ix1 n) = biases m c (ix1 N) := by
  obtain ⟨-, -, -, -, -, -, e6, -⟩ := index_facts t
  show iblk m c 4 t _ = V m c main_arg4 _
  unfold iblk
  rw [View.read_apply]
  show V m c main_arg4 _ = V m c main_arg4 _
  refine congrArg (V m c main_arg4) (funext fun a => Fin.ext ?_)
  match a with
  | ⟨0, _⟩ => show win0_4.index t (0 : Fin 1) * 512 + 1 * n.val = N.val; rw [e6, hN]; omega

/-- The 2048 products one accumulation step adds at point t, entry (r, n): row M of the flattened activations
    against the dequantized weights of channel N, over the half of the features ¶half¶ enumerates. -/
theorem half_products (c : Dev nD) (t : Fin cfg0.N) (r n : Fin 512) (M N : Fin 4096) (half : Fin 2048 → Fin 4096)
    (hM : M.val = 512 * (t.val / 16) + r.val) (hN : N.val = 512 * (t.val / 2 % 8) + n.val)
    (hK : ∀ k, (half k).val = 2048 * (t.val % 2) + k.val) :
    ∑ k : Fin 2048, actsBlk m c t (ix2 r k)
        * ((ofInt (wintsBlk m c t (ix2 n k)) - ofInt (zpointsBlk m c t (ix1 n))) * scalesBlk m c t (ix1 n))
      = ∑ k : Fin 2048, acts m c (ix2 M (half k)) * weight (wints m c) (scales m c) (zpoints m c) N (half k) :=
  Finset.sum_congr rfl fun k _ => by
    rw [acts_block_apply m c t r k M (half k) hM (hK k), weights_block_apply m c t n k N (half k) hN (hK k),
      zero_point_block_apply m c t n N hN, scale_block_apply m c t n N hN]
    rfl

/-- The output array's contents after the region: the two-halves evaluation of the arrays as the region finds them. -/
def tiled (c : Dev nD) : Buf (Elt Ideal) ((c : Thread nD τ).loc main_v1) :=
  linearHalves (acts m c) (wints m c) (scales m c) (zpoints m c) (biases m c)

/-- WHAT AN ODD POINT LEAVES in the output's staging buffer, entry (r, n): the two-halves evaluation at the array
    entry j = (M, N) its block places there. The point before started the reduction on the first half of the features,
    on the same rows and channels. -/
theorem block_apply (c : Dev nD) (t : Fin cfg0.N) (h1 : t.val % 2 = 1) (r n : Fin 512) (j : SW.Idx)
    (hM : (j 0).val = 512 * (t.val / 16) + r.val) (hN : (j 1).val = 512 * (t.val / 2 % 8) + n.val) :
    (outsAt0 m c t.val t.isLt).1 (ix2 r n) = tiled m c j := by
  have hcN : cfg0.N = 128 := N_0
  have hlt := t.isLt
  have h0 : ¬t.val % 2 = 0 := by omega
  have hp : t.val - 1 < cfg0.N := by omega
  have hp0 : (t.val - 1) % 2 = 0 := by omega
  have hp1 : ¬(t.val - 1) % 2 = 1 := by omega
  have eB : (outsAt0 m c t.val t.isLt).1
      = k0_pay3 (F := Ideal) (k0_pay2 (scalesBlk m c t) (zpointsBlk m c t) (wintsBlk m c t) (actsBlk m c t) (outsAt0 m c (t.val - 1) hp).2) (biasesBlk m c t) := by
    rw [outsAt0_B m c t h0 h1]
    dsimp only
    exact out_B (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) (fun h => h0 ((hcond0_0 t).mp h)) ((hcond0_1 t).mpr h1)
      (actsBlk m c t) (wintsBlk m c t) (scalesBlk m c t) (zpointsBlk m c t) (biasesBlk m c t) (outsAt0 m c (t.val - 1) hp).2
  have eA : (outsAt0 m c (t.val - 1) hp).2
      = k0_pay2 (F := Ideal) (scalesBlk m c ⟨t.val - 1, hp⟩) (zpointsBlk m c ⟨t.val - 1, hp⟩) (wintsBlk m c ⟨t.val - 1, hp⟩) (actsBlk m c ⟨t.val - 1, hp⟩) (k0_pay1 (F := Ideal)) := by
    rw [show outsAt0 m c (t.val - 1) hp = outsAt0 m c (⟨t.val - 1, hp⟩ : Fin cfg0.N).val (⟨t.val - 1, hp⟩ : Fin cfg0.N).isLt from rfl,
      outsAt0_A m c ⟨t.val - 1, hp⟩ hp0 hp1]
    dsimp only
    exact sout_A (F := Ideal) c (grid0.coords ⟨t.val - 1, hp⟩) (ms0_0 ⟨t.val - 1, hp⟩) (hs0_0 ⟨t.val - 1, hp⟩) (ms0_1 ⟨t.val - 1, hp⟩) (hs0_1 ⟨t.val - 1, hp⟩)
      (ms0_2 ⟨t.val - 1, hp⟩) (hs0_2 ⟨t.val - 1, hp⟩) (ms0_3 ⟨t.val - 1, hp⟩) (hs0_3 ⟨t.val - 1, hp⟩) (ms0_4 ⟨t.val - 1, hp⟩) (hs0_4 ⟨t.val - 1, hp⟩)
      (ms0_5 ⟨t.val - 1, hp⟩) (hs0_5 ⟨t.val - 1, hp⟩) scM0_0 (Memref.isWhole_whole _) ((hcond0_0 ⟨t.val - 1, hp⟩).mpr hp0)
      (fun h => hp1 ((hcond0_1 ⟨t.val - 1, hp⟩).mp h))
      (actsBlk m c ⟨t.val - 1, hp⟩) (wintsBlk m c ⟨t.val - 1, hp⟩) (scalesBlk m c ⟨t.val - 1, hp⟩) (zpointsBlk m c ⟨t.val - 1, hp⟩) (biasesBlk m c ⟨t.val - 1, hp⟩)
  rw [eB, eA]
  refine (reduction_apply (scalesBlk m c ⟨t.val - 1, hp⟩) (scalesBlk m c t) (zpointsBlk m c ⟨t.val - 1, hp⟩) (zpointsBlk m c t)
    (wintsBlk m c ⟨t.val - 1, hp⟩) (wintsBlk m c t) (actsBlk m c ⟨t.val - 1, hp⟩) (actsBlk m c t) (biasesBlk m c t) r n).trans ?_
  rw [half_products m c ⟨t.val - 1, hp⟩ r n (j 0) (j 1) lo (by rw [hM]; show _ = 512 * ((t.val - 1) / 16) + r.val; omega)
      (by rw [hN]; show _ = 512 * ((t.val - 1) / 2 % 8) + n.val; omega)
      (fun k => by show (lo k).val = 2048 * ((t.val - 1) % 2) + k.val; rw [lo_val]; omega),
    half_products m c t r n (j 0) (j 1) hi hM hN (fun k => by rw [hi_val]; omega),
    biases_block_apply m c t n (j 1) hN]
  rfl

/-- WHAT AN ODD POINT WRITES BACK is its block of the two-halves evaluation. -/
theorem flushed_eq (c : Dev nD) (t : Fin cfg0.N) (hf : (cfg0.win 5).flush t = true) :
    (dats m 0 c).flushed 5 t = ((cfg0.win 5).blk t).view.read (Elt Ideal) (tiled m c) := by
  have h1 : t.val % 2 = 1 := (flush0_5 t).mp hf
  obtain ⟨-, -, -, -, -, -, -, e7, e8⟩ := index_facts t
  show (cfg0.win 5).cut (grid0.coords t) ((dats m 0 c).after 5 t) = _
  rw [after0_5]
  funext y
  obtain ⟨r, n, rfl⟩ : ∃ (r n : Fin 512), y = ix2 r n := ⟨y 0, y 1, eq_ix2 y⟩
  rw [View.read_apply]
  refine block_apply m c t h1 r n _ ?_ ?_
  · show win0_5.index t (0 : Fin 2) * 512 + 1 * r.val = _; rw [e7]; omega
  · show win0_5.index t (1 : Fin 2) * 512 + 1 * n.val = _; rw [e8]; omega

/-- An entry of the output array is in point t's block iff each coordinate is in the block's range on its axis. -/
theorem mem_block (t : Fin cfg0.N) (i : S4096x4096.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v1).slice (win0_5.rect t)).set ↔ _
  rw [View.set_slice_whole, Rect.mem_set_unit]
  exact Iff.rfl

/-- Entry (M, N) lies in the block written back at the odd point 2·(8·(M/512) + N/512) + 1. -/
theorem cover (i : S4096x4096.Idx) :
    ∃ t : Fin cfg0.N, (cfg0.win 5).flush t = true ∧ i ∈ ((cfg0.win 5).blk t).view.set := by
  have hcN : cfg0.N = 128 := N_0
  have hi0 : (i 0).val < 4096 := (i 0).isLt
  have hi1 : (i 1).val < 4096 := (i 1).isLt
  have ht : ((i 0).val / 512 * 8 + (i 1).val / 512) * 2 + 1 < cfg0.N := by omega
  obtain ⟨-, -, -, -, -, -, -, e7, e8⟩ := index_facts ⟨((i 0).val / 512 * 8 + (i 1).val / 512) * 2 + 1, ht⟩
  refine ⟨⟨((i 0).val / 512 * 8 + (i 1).val / 512) * 2 + 1, ht⟩, (flush0_5 _).mpr (by show (((i 0).val / 512 * 8 + (i 1).val / 512) * 2 + 1) % 2 = 1; omega), ?_⟩
  rw [mem_block]
  intro a
  match a with
  | ⟨0, _⟩ =>
    show win0_5.index ⟨((i 0).val / 512 * 8 + (i 1).val / 512) * 2 + 1, ht⟩ (0 : Fin 2) * 512 ≤ (i 0).val
      ∧ (i 0).val < win0_5.index ⟨((i 0).val / 512 * 8 + (i 1).val / 512) * 2 + 1, ht⟩ (0 : Fin 2) * 512 + 512
    rw [e7]; show (((i 0).val / 512 * 8 + (i 1).val / 512) * 2 + 1) / 16 * 512 ≤ _ ∧ _ < (((i 0).val / 512 * 8 + (i 1).val / 512) * 2 + 1) / 16 * 512 + 512
    omega
  | ⟨1, _⟩ =>
    show win0_5.index ⟨((i 0).val / 512 * 8 + (i 1).val / 512) * 2 + 1, ht⟩ (1 : Fin 2) * 512 ≤ (i 1).val
      ∧ (i 1).val < win0_5.index ⟨((i 0).val / 512 * 8 + (i 1).val / 512) * 2 + 1, ht⟩ (1 : Fin 2) * 512 + 512
    rw [e8]; show (((i 0).val / 512 * 8 + (i 1).val / 512) * 2 + 1) / 2 % 8 * 512 ≤ _ ∧ _ < (((i 0).val / 512 * 8 + (i 1).val / 512) * 2 + 1) / 2 % 8 * 512 + 512
    omega

/-- THE OUTPUT ARRAY after the region holds the two-halves evaluation of the arrays as the region finds them. -/
theorem final (c : Dev nD) : (dats m 0 c).arrAt 5 cfg0.N = tiled m c :=
  (dats m 0 c).arrAt_eq_of_cover 5 (tiled m c) (flushed_eq m c) cover

end Cert.KernelIdeal.Blocks

end
-- ==== Proof.KernelRun.lean ====
/-
  The kernel program's run, read as values.

  Around the tiled region the program flattens the activations' two leading axes before it (2 × 2048 rows become
  4096) and un-flattens the region's output after it. The region finds the other four arrays as launched, and leaves
  its output at the two-halves evaluation of what it found (`Blocks.final`). So the program's result is the
  un-flattening of the two-halves evaluation of the flattened activations, which the specification's law
  (`unflatten_linearHalves`) identifies with the layer itself; the argument arrays end as they began.
-/
import proofs.«119372_j72662256714090_1_alg».proof.Proof.Blocks
import Idealize.ShloMosaic.Lib.StableHlo.Run
import Idealize.ShloMosaic.Lib.Tactic

set_option maxRecDepth 16384

noncomputable section

namespace Cert.KernelIdeal.Layer

open Cert.KernelIdeal Cert.KernelIdeal.Gen Cert.KernelIdeal.Blocks Cert.QLinear
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The region finds the activations flattened. -/
theorem acts_eq (c : Dev nD) :
    acts m c = shapeCast S4096x4096 (m ((c : Thread nD τ).loc main_arg0)) shapeCasts_S2x2048x4096_S4096x4096 := by
  show StableHlo.after hostOps0 (fun b => m (c, b)) (Proc.devRef .tc main_v0) = _
  after_results
  rfl

/-- So the region's output is the two-halves evaluation of the launch contents, the activations flattened. -/
theorem tiled_eq (c : Dev nD) :
    tiled m c = linearHalves (shapeCast S4096x4096 (m ((c : Thread nD τ).loc main_arg0)) shapeCasts_S2x2048x4096_S4096x4096)
      (m ((c : Thread nD τ).loc main_arg1)) (m ((c : Thread nD τ).loc main_arg2)) (m ((c : Thread nD τ).loc main_arg3))
      (m ((c : Thread nD τ).loc main_arg4)) := by
  unfold tiled
  rw [acts_eq]
  show linearHalves _ (V m c main_arg1) (V m c main_arg2) (V m c main_arg3) (V m c main_arg4) = _
  rw [V_main_arg1, V_main_arg2, V_main_arg3, V_main_arg4]

/-- The program's result: the region's output un-flattened, which is the layer. -/
theorem result_eq (c : Dev nD) :
    Pipeline.afterTail₀ cfgs (dats m) 0 (V0 m) [hostOps1] c main_v2
      = linear (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = tiled m c from (Pipeline.withArrays_arr spec0 launch0.win.arr_inj c _ _ 5).trans (final m c), tiled_eq]
  exact unflatten_linearHalves _ _ _ _ _ shapeCasts_S2x2048x4096_S4096x4096 shapeCasts_S4096x4096_S2x2048x4096

/-- THE RUN, READ. Every weakly fair execution of the program terminates with its result at the layer of the launch
    contents and its five argument arrays unchanged. -/
theorem run : θ_run defs (onTc (τ := τ) (main (F := Ideal))) ⟨m, fun _ => 0, ρ⟩ fun r => ∀ c : Dev nD,
      r.2.mem ((c.tc : Thread nD τ).loc main_v2)
        = linear (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Layer

end
-- ==== Proof.lean ====
/-
  The certificate of the quantized linear layer: a tiled kernel against its one-line reference.

  Both programs compute, for activations x of shape 2 × 2048 × 4096, integer weights q of shape 4096 × 4096 with a
  zero point zp[o] and a scale sc[o] per output channel, and a bias, the array
      out[b, s, o] = (∑ k < 4096, x[b, s, k] · ((q[o, k] − zp[o]) · sc[o])) + bias[o]
  over the extended reals (Proof/Spec.lean, `linear`).
  The reference does it in one contraction (Proof/RefSide.lean). The kernel flattens the rows, tiles the 4096 × 4096
  output into 512 × 512 blocks, and for each block sums the 4096 products in two halves of 2048 into an accumulator
  that starts at zero, adding the bias after the second half (Proof/Pieces.lean, Proof/Payload.lean: one run of the
  body as values; Proof/Blocks.lean: from grid points to the output array; Proof/KernelRun.lean: the whole program).
  The two agree because a sum over 4096 indices is the sum of its two halves and 0 + a = a: laws of a commutative
  monoid, valid at the infinities too, so the precondition that the inputs are finite is never opened.
  The narrowing of both matrix-product operands to a shorter float format is the identity on extended reals, and
  the idealized kernel is the kernel's own text read at the ideal values: nothing was rewritten, so the
  idealization claim is `True`.
-/
import proofs.«119372_j72662256714090_1_alg».proof.Defs
import proofs.«119372_j72662256714090_1_alg».proof.Proof.Gen.Kernel
import proofs.«119372_j72662256714090_1_alg».proof.Proof.Gen.Kernel.Skeleton
import proofs.«119372_j72662256714090_1_alg».proof.Proof.Gen.Kernel.Launch
import proofs.«119372_j72662256714090_1_alg».proof.Proof.Gen.Kernel.Points
import proofs.«119372_j72662256714090_1_alg».proof.Proof.Gen.Kernel.Frame
import proofs.«119372_j72662256714090_1_alg».proof.Proof.Gen.KernelIdeal
import proofs.«119372_j72662256714090_1_alg».proof.Proof.Gen.KernelIdeal.Skeleton
import proofs.«119372_j72662256714090_1_alg».proof.Proof.Gen.KernelIdeal.Launch
import proofs.«119372_j72662256714090_1_alg».proof.Proof.Gen.KernelIdeal.Points
import proofs.«119372_j72662256714090_1_alg».proof.Proof.Gen.KernelIdeal.Frame
import proofs.«119372_j72662256714090_1_alg».proof.Proof.Gen.ReferenceIdeal
import proofs.«119372_j72662256714090_1_alg».proof.Proof.Gen.ReferenceIdeal.Run
import proofs.«119372_j72662256714090_1_alg».proof.Proof.Gen.ReferenceIdeal.Read
import proofs.«119372_j72662256714090_1_alg».proof.Proof.Gen.Pre_finite_inputs
import proofs.«119372_j72662256714090_1_alg».proof.Proof.Spec
import proofs.«119372_j72662256714090_1_alg».proof.Proof.RefSide
import proofs.«119372_j72662256714090_1_alg».proof.Proof.KernelRun
import Idealize.ShloMosaic.Adequacy
import Idealize.ShloMosaic.Init

noncomputable section

namespace Cert.Proof

open Idealize.ShloMosaic Idealize.SL.Sem Cert.QLinear

/-- The kernel as printed runs to the end without a fault and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values both programs end with the layer of their (agreeing) arguments. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Layer.result_eq_linear,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
